-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel

variable [Facts]

def fn {F : FTy → Type} [FloatOps F] (main_arg0 : FVec F S16x4096x64 .f32) (main_arg1 : FVec F S16x4096x64 .f32) (main_arg2 : FVec F S16x4096x64 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_v9 : FVec F S16x4096x64 .f32 := Host.absf main_arg2
  let main_cst_2 : FVec F S_ .f32 := constant S_ .f32 0x7F800000#32
  let main_v10 : FVec F S16x4096x64 .f32 := broadcastInDim S16x4096x64 ![] bcast_S_S16x4096x64 main_cst_2
  let main_v11 : IVec S16x4096x64 1 := cmpf .olt main_v9 main_v10
  let main_c_3 : IVec S_ 1 := constantI S_ 1 1#1
  let main_v12 : IVec S_ 1 := (fun x v => Host.reduce IntOp.andi x v reducesTo_S16x4096x64_S_d0_1_2 h_S_) main_v11 main_c_3
  let main_v13 : IVec S_ 1 := andi main_v8 main_v12
  main_v13
-- ==== Kernel.lean ====
abbrev S16x4096x64 : Shape := ⟨3, ![16, 4096, 64]⟩
abbrev S1x1024x64 : Shape := ⟨3, ![1, 1024, 64]⟩
abbrev S1x4096x64 : Shape := ⟨3, ![1, 4096, 64]⟩
abbrev S1024x64 : Shape := ⟨2, ![1024, 64]⟩
abbrev S4096x64 : Shape := ⟨2, ![4096, 64]⟩
abbrev S1024x4096 : Shape := ⟨2, ![1024, 4096]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x64, .f32⟩
  | .local _ .vmem, ⟨0, _⟩ => ⟨S1x1024x64, .f32⟩
  | .local _ .vmem, ⟨1, _⟩ => ⟨S1x1024x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x1024x64, .f32⟩
  | .local _ .vmem, ⟨7, _⟩ => ⟨S1x1024x64, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S1024x4096_S1024 : S1024x4096.Reduces [1] S1024
  shapeCasts_S1024_S1024x1 : S1024.ShapeCasts S1024x1
  broadcasts_S1024x1_S1024x4096 : S1024x1.Broadcasts S1024x4096
  bitsLt_bf16_f32 : FTy.bits .bf16 < FTy.bits .f32
  broadcasts_S1024x1_S1024x64 : S1024x1.Broadcasts S1024x64
  shapeCasts_S1024x64_S1x1024x64 : S1024x64.ShapeCasts S1x1024x64
  dot_S1024x64_S4096x64_S1024x4096_1_1_0_0_n_n_wf : DotDims.WF S1024x64 S4096x64 S1024x4096 [1] [1] [0] [0] [] []
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x4096x64.size a
  hwx0_0 : ∀ i : grid0.Coords, EltTy.bits .f32 = 32 ∨ (Rect.block (s := S16x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S16x4096x64.size a
  hwx0_1 : ∀ i : grid0.Coords, EltTy.bits .f32 = 32 ∨ (Rect.block (s := S16x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S16x4096x64.size a
  hwx0_2 : ∀ i : grid0.Coords, EltTy.bits .f32 = 32 ∨ (Rect.block (s := S16x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x4096x64.size a
  hwx0_3 : ∀ i : grid0.Coords, EltTy.bits .f32 = 32 ∨ (Rect.block (s := S16x4096x64) S1x1024x64.size (cc0_transform_3 i) (hinb0_3 i)).WholeWords (EltTy.packing .f32)

variable [Facts₀]

def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096x4096, .f32⟩
  | .hbm, ⟨4, _⟩ => ⟨S_, .f32⟩
  | .hbm, ⟨5, _⟩ => ⟨S_, .f32⟩
  | .hbm, ⟨6, _⟩ => ⟨S16x4096x4096, .f32⟩
  | .hbm, ⟨7, _⟩ => ⟨S16x4096x4096, .f32⟩
  | .hbm, ⟨8, _⟩ => ⟨S_, .f32⟩
  | .hbm, ⟨9, _⟩ => ⟨S16x4096x4096, .f32⟩
  | .hbm, ⟨10, _⟩ => ⟨S16x4096x4096, .i1⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096, .f32⟩
  | .hbm, ⟨16, _⟩ => ⟨S_, .f32⟩
  | .hbm, ⟨17, _⟩ => ⟨S16x4096, .f32⟩
  | .hbm, ⟨18, _⟩ => ⟨S16x4096, .f32⟩
  | .hbm, ⟨19, _⟩ => ⟨S16x4096x1, .f32⟩
  | .hbm, ⟨20, _⟩ => ⟨S16x4096x4096, .f32⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096, .f32⟩
  | .hbm, ⟨25, _⟩ => ⟨S16x4096x1, .f32⟩
  | .hbm, ⟨26, _⟩ => ⟨S16x4096x4096, .f32⟩
  | .hbm, ⟨27, _⟩ => ⟨S16x4096x4096, .f32⟩
  | .hbm, ⟨28, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.LibERealSum.lean ====
/-
  Finite sums of extended reals.

  The extended reals are a commutative monoid under addition, so finite sums may be reordered and regrouped
  freely; multiplication, however, distributes over addition only with care, because of the infinities.  The
  lemmas here are the ones a weighted sum needs: the coercion from the reals commutes with a finite sum; a
  NON-NEGATIVE REAL factor distributes over any finite sum of extended reals, infinite or not; and, from these, a
  sum of terms weighted by the class of their index equals the sum over classes of the class weight times the
  sum of the terms of that class.  Nothing is assumed of the terms themselves: they may be infinite, of either sign.
  Last, the index type of a rank-one shape is its one coordinate, so a sum over it is a sum over `Fin n`.
-/
import Mathlib.Data.EReal.Inv
import Mathlib.Algebra.BigOperators.Group.Finset.Basic
import Idealize.ShloMosaic.Lib.ValueIdx

noncomputable section

open scoped BigOperators

namespace Cert.Lib.ERealSum

open Idealize.ShloMosaic Idealize.ShloMosaic.ValueIdx

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor distributes over a finite sum of extended reals, whatever the terms. -/
theorem mul_sum_of_nonneg {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- REGROUPING BY CLASS.  Each index `j` has a class `g j`, each class a non-negative real weight.  The sum over
    classes of the weight times the sum of the terms of that class is the sum of the terms, each weighted by its
    own class's weight. -/
theorem sum_group_by_class {J C : Type*} [Fintype J] [Fintype C] [DecidableEq C] (g : J → C) (w : C → ℝ)
    (hw : ∀ c, 0 ≤ w c) (a : J → EReal) :
    ∑ c, (w c : EReal) * ∑ j, (if g j = c then a j else 0) = ∑ j, (w (g j) : EReal) * a j := by
  have h1 : ∀ c, (w c : EReal) * ∑ j, (if g j = c then a j else 0) = ∑ j, (w c : EReal) * (if g j = c then a j else 0) :=
    fun c => mul_sum_of_nonneg _ (hw c) _
  rw [Finset.sum_congr rfl fun c _ => h1 c, Finset.sum_comm]
  refine Finset.sum_congr rfl fun j _ => ?_
  rw [Finset.sum_eq_single (g j)]
  · rw [if_pos rfl]
  · intro c _ hc; rw [if_neg (Ne.symm hc), mul_zero]
  · intro h; exact absurd (Finset.mem_univ _) h

/-- The index type of a rank-one shape is its coordinate. -/
def idxEquiv1 {n : Nat} : (⟨1, ![n]⟩ : Shape).Idx ≃ Fin n where
  toFun j := j 0
  invFun a := ix1 a
  left_inv j := (eq_ix1 j).symm
  right_inv _ := rfl

/-- A sum over a rank-one index set is the sum over its coordinate. -/
theorem sum_idx1 {M : Type*} [AddCommMonoid M] {n : Nat} (f : (⟨1, ![n]⟩ : Shape).Idx → M) :
    ∑ j, f j = ∑ a : Fin n, f (ix1 a) :=
  (Fintype.sum_equiv idxEquiv1.symm _ _ fun _ => rfl).symm

end Cert.Lib.ERealSum

end
-- ==== Proof.AttnLaw.lean ====
/-
  Single-pass softmax attention along one query row, on the extended reals.

  For one query row `q` (its `δ` features), the keys `kk` (one row of `δ` features per key `k`) and one column `vv`
  of the values, the row's scores are `s k = mask ((Σ_e q e · kk k e) · 1/8)`, where `mask` replaces an exact zero by
  the finite stand-in `-1e30`; `M` is their maximum, `w k = exp (s k − M)` the unnormalised weights, `L = Σ_k w k`
  their sum.  Two arrangements of the normalisation are compared:

  * normalise last:  `(Σ_k w k · vv k) · (1 / L)`;
  * normalise first: `Σ_k (w k / L) · vv k`.

  When the query and the keys are finite every score is a real number, so is the maximum (the key set is not empty),
  every weight is a positive real, and `L` is a positive real.  Dividing by a non-zero real is multiplying by its
  reciprocal on every extended real, and a non-negative real factor distributes over any finite sum of extended reals,
  so the two arrangements agree — whatever the values are, finite or not.

  Also here: the constants the two programs spell (`64`, `1/8`, `1`, `-∞`, the finite `-1e30`), and that dividing by
  `√64` is multiplying by `1/8` on every extended real.
-/
import Idealize.ShloMosaic.PureOps.Ideal.Laws
import proofs.«104723_j75393855914174_2_alg».proof.Proof.LibERealSum

noncomputable section

open scoped BigOperators

namespace Cert.Attn

open Idealize.ShloMosaic

/-! ## The constants -/

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.125` denotes the real `1/8`. -/
theorem ofBits_eighth : Ideal.ofBits .f32 0x3E000000#32 = ((1 / 8 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern of `-inf` denotes the bottom element. -/
theorem ofBits_negInf : Ideal.ofBits .f32 0xFF800000#32 = ⊥ := by
  simp [Ideal.ofBits, Ideal.ieee]

/-- The pattern of `-1e30` denotes a real number (the dyadic `-13234890 · 2^76`). -/
theorem ofBits_negBig : ∃ n : ℝ, Ideal.ofBits .f32 0xF149F2CA#32 = (n : EReal) := by
  refine ⟨-(13234890 * 2 ^ 76), ?_⟩
  simp [Ideal.ofBits, Ideal.ieee, -EReal.coe_mul]

/-- Dividing by `√64` is multiplying by `1/8`, on every extended real. -/
theorem div_sqrt64 (x : EReal) :
    Ideal.div x (Ideal.sqrt (Ideal.ofBits .f32 0x42800000#32)) = x * Ideal.ofBits .f32 0x3E000000#32 := by
  have h8 : Real.sqrt 64 = 8 := by
    rw [show (64 : ℝ) = 8 ^ 2 by norm_num]; exact Real.sqrt_sq (by norm_num)
  rw [ofBits_64, ofBits_eighth, Ideal.sqrt_coe, if_neg (by norm_num), h8, Ideal.div_coe (by norm_num)]

/-! ## One row -/

/-- An exact zero is replaced by the finite stand-in `-1e30`; every other value is kept. -/
def masked (x : EReal) : EReal :=
  Scalar.select (Ideal.cmp .oeq x (Ideal.ofBits .f32 0x00000000#32)) (Ideal.ofBits .f32 0xF149F2CA#32) x

variable {κ δ : Type} [Fintype κ] [Fintype δ]

/-- The masked, scaled score of the query row against key `k`. -/
def score (q : δ → EReal) (kk : κ → δ → EReal) (k : κ) : EReal :=
  masked ((∑ e, q e * kk k e) * Ideal.ofBits .f32 0x3E000000#32)

/-- The row's largest score (a fold of `max` from `-∞`). -/
def rowMax (q : δ → EReal) (kk : κ → δ → EReal) : EReal :=
  (Finset.univ : Finset κ).fold max (Ideal.ofBits .f32 0xFF800000#32) (score q kk)

/-- The unnormalised softmax weight of key `k`. -/
def weight (q : δ → EReal) (kk : κ → δ → EReal) (k : κ) : EReal :=
  Ideal.exp (score q kk k - rowMax q kk)

/-- The sum of the row's weights. -/
def rowSum (q : δ → EReal) (kk : κ → δ → EReal) : EReal := ∑ k, weight q kk k

/-- Weighted sum of the values first, one multiplication by the reciprocal of the weights' sum last. -/
def attnLast (q : δ → EReal) (kk : κ → δ → EReal) (vv : κ → EReal) : EReal :=
  (∑ k, weight q kk k * vv k) * Ideal.div (Ideal.ofBits .f32 0x3F800000#32) (rowSum q kk)

/-- Each weight divided by the weights' sum first, the weighted sum of the values last. -/
def attnFirst (q : δ → EReal) (kk : κ → δ → EReal) (vv : κ → EReal) : EReal :=
  ∑ k, Ideal.div (weight q kk k) (rowSum q kk) * vv k

/-- Masking keeps a real number real. -/
theorem masked_coe (r : ℝ) : ∃ r' : ℝ, masked (r : EReal) = (r' : EReal) := by
  obtain ⟨n, hn⟩ := ofBits_negBig
  unfold masked Scalar.select
  split
  · exact ⟨n, hn⟩
  · exact ⟨r, rfl⟩

/-- With a finite query and finite keys every score is a real number. -/
theorem score_real {q : δ → EReal} {kk : κ → δ → EReal} (hq : ∀ e, ∃ r : ℝ, q e = (r : EReal))
    (hk : ∀ k e, ∃ r : ℝ, kk k e = (r : EReal)) (k : κ) : ∃ r : ℝ, score q kk k = (r : EReal) := by
  choose qr hqr using hq
  choose kr hkr using hk
  have h : (∑ e, q e * kk k e) * Ideal.ofBits .f32 0x3E000000#32 = (((∑ e, qr e * kr k e) * (1 / 8) : ℝ) : EReal) := by
    rw [ofBits_eighth, EReal.coe_mul, Cert.Lib.ERealSum.coe_finset_sum]
    refine congrArg (· * _) (Finset.sum_congr rfl fun e _ => ?_)
    rw [hqr e, hkr k e, EReal.coe_mul]
  unfold score
  rw [h]
  exact masked_coe _

/-- The maximum of finitely many real numbers, over a set that is not empty, folded from `-∞`, is a real number. -/
theorem fold_max_real [Nonempty κ] (s : κ → ℝ) :
    ∃ M : ℝ, (Finset.univ : Finset κ).fold max (⊥ : EReal) (fun k => (s k : EReal)) = (M : EReal) := by
  obtain ⟨k0⟩ := ‹Nonempty κ›
  have hlo : ((s k0 : ℝ) : EReal) ≤ (Finset.univ : Finset κ).fold max (⊥ : EReal) (fun k => (s k : EReal)) :=
    (Finset.le_fold_max _).mpr (Or.inr ⟨k0, Finset.mem_univ _, le_refl _⟩)
  have hhi : (Finset.univ : Finset κ).fold max (⊥ : EReal) (fun k => (s k : EReal))
      ≤ ((Finset.univ.sup' Finset.univ_nonempty s : ℝ) : EReal) :=
    (Finset.fold_max_le _).mpr ⟨bot_le, fun k _ => EReal.coe_le_coe_iff.mpr (Finset.le_sup' s (Finset.mem_univ k))⟩
  refine ⟨_, (EReal.coe_toReal ?_ ?_).symm⟩
  · exact ne_top_of_le_ne_top (EReal.coe_ne_top _) hhi
  · exact ne_bot_of_le_ne_bot (EReal.coe_ne_bot _) hlo

/-- With a finite query and finite keys the sum of the weights is a positive real number. -/
theorem rowSum_pos [Nonempty κ] {q : δ → EReal} {kk : κ → δ → EReal} (hq : ∀ e, ∃ r : ℝ, q e = (r : EReal))
    (hk : ∀ k e, ∃ r : ℝ, kk k e = (r : EReal)) : ∃ l : ℝ, 0 < l ∧ rowSum q kk = (l : EReal) := by
  choose s hs using score_real hq hk
  have hsf : score q kk = fun k => (s k : EReal) := funext hs
  obtain ⟨M, hM⟩ := fold_max_real s
  have hmax : rowMax q kk = (M : EReal) := by
    unfold rowMax; rw [ofBits_negInf, hsf]; exact hM
  have hw : ∀ k, weight q kk k = ((Real.exp (s k - M) : ℝ) : EReal) := fun k => by
    unfold weight; rw [hmax, hs k, ← EReal.coe_sub, Ideal.exp_coe]
  refine ⟨∑ k, Real.exp (s k - M), Finset.sum_pos (fun k _ => Real.exp_pos _) Finset.univ_nonempty, ?_⟩
  unfold rowSum
  rw [Cert.Lib.ERealSum.coe_finset_sum]
  exact Finset.sum_congr rfl fun k _ => hw k

/-- THE LAW: with a finite query and finite keys, normalising each weight first and normalising the weighted sum
    last give the same extended real, whatever the values. -/
theorem attnFirst_eq_attnLast [Nonempty κ] {q : δ → EReal} {kk : κ → δ → EReal} (vv : κ → EReal)
    (hq : ∀ e, ∃ r : ℝ, q e = (r : EReal)) (hk : ∀ k e, ∃ r : ℝ, kk k e = (r : EReal)) :
    attnFirst q kk vv = attnLast q kk vv := by
  obtain ⟨l, hl, hL⟩ := rowSum_pos hq hk
  have hne : l ≠ 0 := ne_of_gt hl
  have hc : (0 : ℝ) ≤ 1 / l := by positivity
  unfold attnFirst attnLast
  rw [hL, ofBits_one, Ideal.div_coe hne, one_mul, mul_comm, Cert.Lib.ERealSum.mul_sum_of_nonneg _ hc]
  refine Finset.sum_congr rfl fun k _ => ?_
  rw [Ideal.div_coe hne, mul_comm (weight q kk k), mul_assoc]

end Cert.Attn

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.KernelRow.lean ====
/-
  The kernel's body at one entry of its output block.

  At a grid point the body holds one block of 1024 query rows `x0`, all 4096 key rows `x1` and all 4096 value rows
  `x2` of one batch.  It forms the 1024 × 4096 scores `(x0 · x1ᵀ) · 1/8`, replaces the exact zeros by `-1e30`, takes
  each row's maximum, exponentiates the differences, sums each row of weights, multiplies the weights into the values
  and, last, multiplies each output row by the reciprocal of its weights' sum.  Read at output entry `(r, d)` this
  is the "normalise last" arrangement of single-pass softmax attention for query row `r` and value column `d`.

  The body is cut in three stages — the masked scores, the weights from the scores, the output from the weights —
  each read at an entry by itself; the body is their composition by unfolding.
-/
import proofs.«104723_j75393855914174_2_alg».proof.Proof.Gen.KernelIdeal.Skeleton
import proofs.«104723_j75393855914174_2_alg».proof.Proof.AttnLaw
import proofs.«104723_j75393855914174_2_alg».proof.Proof.LibKeepdims
import proofs.«104723_j75393855914174_2_alg».proof.Proof.LibMatmul2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- Stage one: the masked, scaled scores of the query block against the keys. -/
def scores (x0 : FVec Ideal S1x1024x64 .f32) (x1 : FVec Ideal S1x4096x64 .f32) : FVec Ideal S1024x4096 .f32 :=
  select
    (cmpf .oeq
      (mulf (matmul dot_S1024x64_S4096x64_S1024x4096_1_1_0_0_n_n (some .fp32)
        (shapeCast S1024x64 x0 shapeCasts_S1x1024x64_S1024x64) (shapeCast S4096x64 x1 shapeCasts_S1x4096x64_S4096x64)
        (constant S1024x4096 .f32 0x00000000#32)) (broadcast S1024x4096 (Scalar.ofBits .f32 0x3E000000#32)))
      (broadcast S1024x4096 (Scalar.ofBits .f32 0x00000000#32)))
    (broadcast S1024x4096 (Scalar.ofBits .f32 0xF149F2CA#32))
    (mulf (matmul dot_S1024x64_S4096x64_S1024x4096_1_1_0_0_n_n (some .fp32)
        (shapeCast S1024x64 x0 shapeCasts_S1x1024x64_S1024x64) (shapeCast S4096x64 x1 shapeCasts_S1x4096x64_S4096x64)
        (constant S1024x4096 .f32 0x00000000#32)) (broadcast S1024x4096 (Scalar.ofBits .f32 0x3E000000#32)))

/-- Stage two: each score minus its row's maximum, exponentiated. -/
def weights (s : FVec Ideal S1024x4096 .f32) : FVec Ideal S1024x4096 .f32 :=
  exp (subf s (broadcastTo S1024x4096
    (shapeCast S1024x1 (multiReduction .maximumf [1] S1024 s 0xFF800000#32 reduces_S1024x4096_S1024 (.inl rfl) rfl)
      shapeCasts_S1024_S1024x1) broadcasts_S1024x1_S1024x4096))

/-- Stage three: the weights times the values, each row then multiplied by the reciprocal of its weights' sum. -/
def output (w : FVec Ideal S1024x4096 .f32) (x2 : FVec Ideal S1x4096x64 .f32) : FVec Ideal S1x1024x64 .f32 :=
  shapeCast S1x1024x64
    (mulf
      (matmul dot_S1024x4096_S4096x64_S1024x64_1_0_0_1_n_n none (truncf .bf16 w bitsLt_bf16_f32)
        (truncf .bf16 (shapeCast S4096x64 x2 shapeCasts_S1x4096x64_S4096x64) bitsLt_bf16_f32)
        (constant S1024x64 .f32 0x00000000#32))
      (broadcastTo S1024x64
        (divf (broadcast S1024x1 (Scalar.ofBits .f32 0x3F800000#32))
          (shapeCast S1024x1 (multiReduction .add [1] S1024 w 0x00000000#32 reduces_S1024x4096_S1024 (.inl rfl) rfl)
            shapeCasts_S1024_S1024x1))
        broadcasts_S1024x1_S1024x64))
    shapeCasts_S1024x64_S1x1024x64

/-- The body's stored value is the three stages composed. -/
theorem pay_eq (x0 : FVec Ideal S1x1024x64 .f32) (x1 x2 : FVec Ideal S1x4096x64 .f32) :
    k0_pay1 (F := Ideal) x0 x1 x2 = output (weights (scores x0 x1)) x2 := rfl

/-- Score `(r, k)`: the query row `r` against key row `k`, scaled and masked. -/
theorem scores_apply (x0 : FVec Ideal S1x1024x64 .f32) (x1 : FVec Ideal S1x4096x64 .f32) (r : Fin 1024) (k : Fin 4096) :
    scores x0 x1 (ix2 r k)
      = Cert.Attn.score (fun e : Fin 64 => x0 (ix3 (0 : Fin 1) r e)) (fun (k : Fin 4096) (e : Fin 64) => x1 (ix3 (0 : Fin 1) k e)) k := by
  have hm : matmul dot_S1024x64_S4096x64_S1024x4096_1_1_0_0_n_n (some .fp32)
        (shapeCast S1024x64 x0 shapeCasts_S1x1024x64_S1024x64) (shapeCast S4096x64 x1 shapeCasts_S1x4096x64_S4096x64)
        (constant S1024x4096 .f32 0x00000000#32) (ix2 r k)
      = ∑ e : Fin 64, x0 (ix3 (0 : Fin 1) r e) * x1 (ix3 (0 : Fin 1) k e) := by
    refine (LibMatmul2.matmul_nt_apply dot_S1024x64_S4096x64_S1024x4096_1_1_0_0_n_n_wf (some .fp32)
      (shapeCast S1024x64 x0 shapeCasts_S1x1024x64_S1024x64) (shapeCast S4096x64 x1 shapeCasts_S1x4096x64_S4096x64) r k).trans ?_
    refine Finset.sum_congr rfl fun e _ => ?_
    rw [shapeCast_1ab_ab_apply, shapeCast_1ab_ab_apply]
  unfold scores Cert.Attn.score Cert.Attn.masked
  rw [select_apply, cmpf_apply, mulf_apply, hm]
  rfl

/-- Weight `(r, k)`: the score minus the maximum of row `r`'s scores, exponentiated. -/
theorem weights_apply (s : FVec Ideal S1024x4096 .f32) (r : Fin 1024) (k : Fin 4096) :
    weights s (ix2 r k)
      = Ideal.exp (s (ix2 r k)
          - (Finset.univ : Finset (Fin 4096)).fold max (Ideal.ofBits .f32 0xFF800000#32) (fun k => s (ix2 r k))) := by
  have hmax : multiReduction .maximumf [1] S1024 s 0xFF800000#32 reduces_S1024x4096_S1024 (.inl rfl) rfl (ix1 r)
      = (Finset.univ : Finset (Fin 4096)).fold max (Ideal.ofBits .f32 0xFF800000#32) (fun k => s (ix2 r k)) := by
    refine (Ideal.multiReduction_maximumf_single s 0xFF800000#32 reduces_S1024x4096_S1024 (.inl rfl) rfl (ix1 r)).trans ?_
    refine congrArg (fun f => Finset.fold max (Ideal.ofBits .f32 0xFF800000#32) f (Finset.univ : Finset (Fin 4096))) ?_
    funext k
    refine congrArg s (funext fun ax => Fin.ext ?_)
    match ax with
    | ⟨0, _⟩ => rfl
    | ⟨1, _⟩ => rfl
  unfold weights
  show Ideal.exp (s (ix2 r k) - broadcastTo S1024x4096 _ broadcasts_S1024x1_S1024x4096 (ix2 r k)) = _
  rw [Cert.Lib.Keepdims.broadcastTo_a1_ab_apply, Cert.Lib.Keepdims.shapeCast_a_a1_apply, hmax]

/-- Output `(0, r, d)`: row `r`'s weights against value column `d`, times the reciprocal of the row's weights' sum. -/
theorem output_apply (w : FVec Ideal S1024x4096 .f32) (x2 : FVec Ideal S1x4096x64 .f32) (u : Fin 1) (r : Fin 1024) (d : Fin 64) :
    output w x2 (ix3 u r d)
      = (∑ k : Fin 4096, w (ix2 r k) * x2 (ix3 (0 : Fin 1) k d))
        * Ideal.div (Ideal.ofBits .f32 0x3F800000#32) (∑ k : Fin 4096, w (ix2 r k)) := by
  have hm : matmul dot_S1024x4096_S4096x64_S1024x64_1_0_0_1_n_n none (truncf .bf16 w bitsLt_bf16_f32)
        (truncf .bf16 (shapeCast S4096x64 x2 shapeCasts_S1x4096x64_S4096x64) bitsLt_bf16_f32)
        (constant S1024x64 .f32 0x00000000#32) (ix2 r d)
      = ∑ k : Fin 4096, w (ix2 r k) * x2 (ix3 (0 : Fin 1) k d) := by
    refine (LibMatmul2.matmul_nn_apply dot_S1024x4096_S4096x64_S1024x64_1_0_0_1_n_n_wf none (truncf .bf16 w bitsLt_bf16_f32)
      (truncf .bf16 (shapeCast S4096x64 x2 shapeCasts_S1x4096x64_S4096x64) bitsLt_bf16_f32) r d).trans ?_
    refine Finset.sum_congr rfl fun k _ => ?_
    rw [truncf_apply, truncf_apply, shapeCast_1ab_ab_apply]
  have hs : multiReduction .add [1] S1024 w 0x00000000#32 reduces_S1024x4096_S1024 (.inl rfl) rfl (ix1 r)
      = ∑ k : Fin 4096, w (ix2 r k) :=
    Cert.Lib.Keepdims.rowSum_apply w reduces_S1024x4096_S1024 (.inl rfl) rfl r
  unfold output
  rw [shapeCast_ab_1ab_apply, mulf_apply, hm, Cert.Lib.Keepdims.broadcastTo_a1_ab_apply, divf_apply,
    Cert.Lib.Keepdims.shapeCast_a_a1_apply, hs]
  rfl

/-- THE BODY AT AN ENTRY: the "normalise last" attention of query row `r` of the block against the batch's keys and
    column `d` of its values. -/
theorem pay_apply (x0 : FVec Ideal S1x1024x64 .f32) (x1 x2 : FVec Ideal S1x4096x64 .f32) (u : Fin 1) (r : Fin 1024) (d : Fin 64) :
    k0_pay1 (F := Ideal) x0 x1 x2 (ix3 u r d)
      = Cert.Attn.attnLast (fun e : Fin 64 => x0 (ix3 (0 : Fin 1) r e))
          (fun (k : Fin 4096) (e : Fin 64) => x1 (ix3 (0 : Fin 1) k e)) (fun k : Fin 4096 => x2 (ix3 (0 : Fin 1) k d)) := by
  rw [pay_eq, output_apply]
  unfold Cert.Attn.attnLast Cert.Attn.rowSum Cert.Attn.weight Cert.Attn.rowMax
  simp only [weights_apply, scores_apply]

end Cert.KernelIdeal.Row

end
-- ==== Proof.KernelValue.lean ====
/-
  From the kernel's blocks to its whole result array.

  The grid is 16 batches × 4 blocks of 1024 query rows.  At point `(b, qi)` the body reads query rows
  `1024·qi … 1024·qi + 1023` of batch `b`, all keys and all values of batch `b`, and writes output rows
  `1024·qi … 1024·qi + 1023` of batch `b`.  An output entry `(b, r, d)` therefore depends on query row `(b, r)`, on all
  keys of batch `b` and on column `d` of the values of batch `b` only: every point writes a block of ONE function `attn`
  of the three whole argument arrays, the 64 blocks cover the result, and so the result array is `attn`.
-/
import proofs.«104723_j75393855914174_2_alg».proof.Proof.Gen.KernelIdeal.Value
import proofs.«104723_j75393855914174_2_alg».proof.Proof.KernelRow

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The result as one function of the three argument arrays: at `(b, r, d)`, the "normalise last" attention of query row
    `(b, r)` against the keys of batch `b` and column `d` of its values. -/
def attn (Q K V : S16x4096x64.Idx → EReal) : S16x4096x64.Idx → EReal := fun i =>
  Cert.Attn.attnLast (fun e : Fin 64 => Q (ix3 (i 0) (i 1) e)) (fun (k : Fin 4096) (e : Fin 64) => K (ix3 (i 0) k e))
    (fun k : Fin 4096 => V (ix3 (i 0) k (i 2)))

variable (m : (ℓ : Loc nD τ sig) → Buf (Elt Ideal) ℓ) (ρ : Dev nD → PrngReg)

theorem offsets_zero : (![0, 0, 0] : Fin 3 → Nat) = fun _ => 0 := funext fun a => by fin_cases a <;> rfl

/-- The printed index maps, decided over the 64 grid points: the query window moves with the output window, the key
    and value windows follow its batch coordinate and stay at block 0 otherwise, and the output's block indices stay in
    range. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 3 ∧ win0_3.index t (2 : Fin 3) = 0 :=
  (by decide +kernel : ∀ t : Fin grid0.N, _)

/-- Every (batch, row block) pair is some point's output block. -/
theorem index_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- WHAT POINT `t` WRITES BACK is block `t` of `attn` of the argument arrays as the region finds them. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [Cert.KernelIdeal.Value.flushed3]
  show (cfg0.win 3).cut (grid0.coords t) (out0_3 (iblk m c 0 t) (iblk m c 1 t) (iblk m c 2 t)) = _
  unfold out0_3
  rw [View.canon_unit_zero offsets_zero]
  simp only [View.ld_unit_zero (S := S1x1024x64) offsets_zero, View.ld_unit_zero (S := S1x4096x64) offsets_zero]
  obtain ⟨a0, a1, a2, b0, b1, b2, c0, c1, c2, o0, o1, o2⟩ := index_facts t
  funext j
  have hj0 : (j 0).val < 1 := (j 0).isLt
  have hj1 : (j 1).val < 1024 := (j 1).isLt
  have hj2 : (j 2).val < 64 := (j 2).isLt
  refine ((congrArg (k0_pay1 (F := Ideal) (iblk m c 0 t) (iblk m c 1 t) (iblk m c 2 t)) (eq_ix3 j)).trans
    (Cert.KernelIdeal.Row.pay_apply (iblk m c 0 t) (iblk m c 1 t) (iblk m c 2 t) (j 0) (j 1) (j 2))).trans ?_
  show _ = Cert.Attn.attnLast
    (fun e : Fin 64 => V m c main_arg0 (ix3 ((((cfg0.win 3).blk t).view.emb j) 0) ((((cfg0.win 3).blk t).view.emb j) 1) e))
    (fun (k : Fin 4096) (e : Fin 64) => V m c main_arg1 (ix3 ((((cfg0.win 3).blk t).view.emb j) 0) k e))
    (fun k : Fin 4096 => V m c main_arg2 (ix3 ((((cfg0.win 3).blk t).view.emb j) 0) k ((((cfg0.win 3).blk t).view.emb j) 2)))
  have hq : (fun e : Fin 64 => iblk m c 0 t (ix3 (0 : Fin 1) (j 1) e))
      = fun e : Fin 64 => V m c main_arg0 (ix3 ((((cfg0.win 3).blk t).view.emb j) 0) ((((cfg0.win 3).blk t).view.emb j) 1) e) := by
    funext e
    show V m c main_arg0 (((cfg0.win 0).blk t).view.emb (ix3 (0 : Fin 1) (j 1) e)) = _
    refine congrArg (V m c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 1024 + 1 * (j 1).val = win0_3.index t (1 : Fin 3) * 1024 + 1 * (j 1).val; omega
    | ⟨2, _⟩ => show win0_0.index t (2 : Fin 3) * 64 + 1 * e.val = e.val; omega
  have hk : (fun (k : Fin 4096) (e : Fin 64) => iblk m c 1 t (ix3 (0 : Fin 1) k e))
      = fun (k : Fin 4096) (e : Fin 64) => V m c main_arg1 (ix3 ((((cfg0.win 3).blk t).view.emb j) 0) k e) := by
    funext k e
    show V m c main_arg1 (((cfg0.win 1).blk t).view.emb (ix3 (0 : Fin 1) k e)) = _
    refine congrArg (V m c main_arg1) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 4096 + 1 * k.val = k.val; omega
    | ⟨2, _⟩ => show win0_1.index t (2 : Fin 3) * 64 + 1 * e.val = e.val; omega
  have hv : (fun k : Fin 4096 => iblk m c 2 t (ix3 (0 : Fin 1) k (j 2)))
      = fun k : Fin 4096 => V m c main_arg2 (ix3 ((((cfg0.win 3).blk t).view.emb j) 0) k ((((cfg0.win 3).blk t).view.emb j) 2)) := by
    funext k
    show V m c main_arg2 (((cfg0.win 2).blk t).view.emb (ix3 (0 : Fin 1) k (j 2))) = _
    refine congrArg (V m c main_arg2) (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (1 : Fin 3) * 4096 + 1 * k.val = k.val; omega
    | ⟨2, _⟩ => show win0_2.index t (2 : Fin 3) * 64 + 1 * (j 2).val = win0_3.index t (2 : Fin 3) * 64 + 1 * (j 2).val; omega
  rw [hq, hk, hv]

/-- An index of the result is in point `t`'s block iff each coordinate is in the block's range on its axis. -/
theorem mem_block (t : Fin cfg0.N) (i : S16x4096x64.Idx) :
    i ∈ ((cfg0.win 3).blk t).view.set
      ↔ ∀ a : Fin 3, win0_3.index t a * S1x1024x64.size a ≤ (i a).val ∧ (i a).val < win0_3.index t a * S1x1024x64.size a + S1x1024x64.size a := by
  show i ∈ ((View.whole main_v0).slice (win0_3.rect t)).set ↔ _
  rw [View.set_slice_whole, Rect.mem_set_unit]
  exact Iff.rfl

/-- Every index of the result lies in some point's block: the point of its batch and of its row's block of 1024. -/
theorem covered (i : S16x4096x64.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 64 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE RESULT ARRAY after the run is `attn` of the three argument arrays as launched. -/
theorem final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 (attn (V m c main_arg0) (V m c main_arg1) (V m c main_arg2))
    (fun t _ => flushed_eq m c t) (covered)

/-- The kernel's run with its result named: the result array ends at `attn` of the arguments, which end unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.ReferenceRow.lean ====
/-
  The reference at one entry of its result.

  The reference forms, for every batch `b`, the 4096 × 4096 scores `(Q_b · K_bᵀ) / √64`, replaces the exact zeros by
  `-1e30`, and applies a softmax along the keys: each row's maximum (a reduction from `-∞`, then one more `max`
  against `-∞`, which changes nothing), the exponentials of the differences, each divided by its row's sum; the
  result is the product of these normalised weights with the values.  Dividing by `√64` is multiplying by `1/8`,
  so read at entry `(b, r, d)` this is the "normalise first" arrangement of single-pass softmax attention for query row
  `(b, r)`, the keys of batch `b` and column `d` of its values.
-/
import proofs.«104723_j75393855914174_2_alg».proof.Proof.Gen.ReferenceIdeal.Read
import proofs.«104723_j75393855914174_2_alg».proof.Proof.AttnLaw
import Idealize.ShloMosaic.Lib.ValueIdx
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic Idealize.ShloMosaic.ValueIdx

variable (x0 x1 x2 : (⟨S16x4096x64, .f32⟩ : BufTy).Contents (Elt Ideal))

/-- The query row `(b, r)`. -/
abbrev qrow (b : Fin 16) (r : Fin 4096) : Fin 64 → EReal := fun e => x0 (ix3 b r e)
/-- The keys of batch `b`. -/
abbrev keys (b : Fin 16) : Fin 4096 → Fin 64 → EReal := fun k e => x1 (ix3 b k e)
/-- Column `d` of the values of batch `b`. -/
abbrev vcol (b : Fin 16) (d : Fin 64) : Fin 4096 → EReal := fun k => x2 (ix3 b k d)

/-- The masked score `(b, r, k)`. -/
theorem score_apply (b : Fin 16) (r k : Fin 4096) :
    val_main_v6 (F := Ideal) x0 x1 (ix3 b r k) = Cert.Attn.score (qrow x0 b r) (keys x1 b) k := by
  have h3 : val_main_v3 (F := Ideal) x0 x1 (ix3 b r k)
      = (∑ e : Fin 64, x0 (ix3 b r e) * x1 (ix3 b k e)) * Ideal.ofBits .f32 0x3E000000#32 := by
    rw [val_main_v3_apply, val_main_v2_apply, val_main_v1_apply, val_main_cst_apply, val_main_v0_apply,
      Ideal.hostDivf_def, Ideal.hostUnary_sqrt_def, Ideal.ofBits_def, Cert.Attn.div_sqrt64]
    refine congrArg (· * _) (Finset.sum_congr rfl fun e _ => ?_)
    have el : lidx_main_v0 (ix3 b r k) e = ix3 b r e :=
      funext fun a => Fin.ext (by match a with | ⟨0, _⟩ => rfl | ⟨1, _⟩ => rfl | ⟨2, _⟩ => rfl)
    have er : ridx_main_v0 (ix3 b r k) e = ix3 b k e :=
      funext fun a => Fin.ext (by match a with | ⟨0, _⟩ => rfl | ⟨1, _⟩ => rfl | ⟨2, _⟩ => rfl)
    rw [el, er]
  rw [val_main_v6_apply, val_main_v5_apply, val_main_call0_v0_apply, val_main_cst_1_apply, val_main_v4_apply,
    val_main_cst_0_apply, h3]
  rfl

/-- The row maximum `(b, r)`. -/
theorem rowMax_apply (b : Fin 16) (r : Fin 4096) :
    val_main_v9 (F := Ideal) x0 x1 (ix2 b r) = Cert.Attn.rowMax (qrow x0 b r) (keys x1 b) := by
  have hr : S16x4096x4096.Reduces [2] S16x4096 := by decide
  have h7 : val_main_v7 (F := Ideal) x0 x1 (ix2 b r) = Cert.Attn.rowMax (qrow x0 b r) (keys x1 b) := by
    unfold val_main_v7
    refine (Host.reduce_eq_fold_single (α := Ideal .f32) (s := S16x4096x4096) (t := S16x4096) (u := S_)
      (FloatOps.maximumf (F := Ideal) (φ := .f32)) (val_main_v6 (F := Ideal) x0 x1 : S16x4096x4096.Idx → Ideal .f32)
      (val_main_cst_2 (F := Ideal) : S_.Idx → Ideal .f32)
      reducesTo_S16x4096x4096_S16x4096_d2 hr h_S_ (ix2 b r)).trans ?_
    unfold Cert.Attn.rowMax
    refine congrArg (fun f => Finset.fold max (Ideal.ofBits .f32 0xFF800000#32) f (Finset.univ : Finset (Fin 4096))) ?_
    funext k
    refine Eq.trans (congrArg (val_main_v6 (F := Ideal) x0 x1) (funext fun ax => Fin.ext ?_)) (score_apply x0 x1 b r k)
    match ax with
    | ⟨0, _⟩ => rfl
    | ⟨1, _⟩ => rfl
    | ⟨2, _⟩ => rfl
  rw [val_main_v9_apply, val_main_v8_apply, val_main_cst_3_apply, h7, Ideal.maximumf_def, Ideal.ofBits_def,
    Cert.Attn.ofBits_negInf]
  exact max_eq_right bot_le

/-- The unnormalised weight `(b, r, k)`. -/
theorem weight_apply (b : Fin 16) (r k : Fin 4096) :
    val_main_v13 (F := Ideal) x0 x1 (ix3 b r k) = Cert.Attn.weight (qrow x0 b r) (keys x1 b) k := by
  have e11 : idx_main_v10 (idx_main_v11 (ix3 b r k)) = ix2 b r :=
    funext fun a => Fin.ext (by match a with | ⟨0, _⟩ => rfl | ⟨1, _⟩ => rfl)
  rw [val_main_v13_apply, val_main_v12_apply, val_main_v11_apply, val_main_v10_apply, e11, rowMax_apply, score_apply]
  rfl

/-- The sum of the weights of row `(b, r)`. -/
theorem rowSum_apply (b : Fin 16) (r : Fin 4096) :
    val_main_v14 (F := Ideal) x0 x1 (ix2 b r) = Cert.Attn.rowSum (qrow x0 b r) (keys x1 b) := by
  rw [val_main_v14_apply, val_main_cst_4_apply, Ideal.ofBits_def, Ideal.ofBits_zero_f32, zero_add]
  unfold Cert.Attn.rowSum
  refine Finset.sum_congr rfl fun k _ => ?_
  refine Eq.trans (congrArg (val_main_v13 (F := Ideal) x0 x1) (funext fun ax => Fin.ext ?_)) (weight_apply x0 x1 b r k)
  match ax with
  | ⟨0, _⟩ => rfl
  | ⟨1, _⟩ => rfl
  | ⟨2, _⟩ => rfl

/-- THE REFERENCE AT AN ENTRY: the "normalise first" attention of query row `(b, r)` against the keys of batch `b` and
    column `d` of its values. -/
theorem result_apply (b : Fin 16) (r : Fin 4096) (d : Fin 64) :
    val_main_v18 (F := Ideal) x0 x1 x2 (ix3 b r d)
      = Cert.Attn.attnFirst (qrow x0 b r) (keys x1 b) (vcol x2 b d) := by
  rw [val_main_v18_apply]
  unfold Cert.Attn.attnFirst
  refine Finset.sum_congr rfl fun k _ => ?_
  have el : lidx_main_v18 (ix3 b r d) k = ix3 b r k :=
    funext fun a => Fin.ext (by match a with | ⟨0, _⟩ => rfl | ⟨1, _⟩ => rfl | ⟨2, _⟩ => rfl)
  have er : ridx_main_v18 (ix3 b r d) k = ix3 b k d :=
    funext fun a => Fin.ext (by match a with | ⟨0, _⟩ => rfl | ⟨1, _⟩ => rfl | ⟨2, _⟩ => rfl)
  have e16 : idx_main_v15 (idx_main_v16 (ix3 b r k)) = ix2 b r :=
    funext fun a => Fin.ext (by match a with | ⟨0, _⟩ => rfl | ⟨1, _⟩ => rfl)
  rw [el, er, val_main_v17_apply, val_main_v16_apply, val_main_v15_apply, e16, rowSum_apply, weight_apply,
    Ideal.hostDivf_def]

end Cert.ReferenceIdeal.Row

end
-- ==== Proof.Finite.lean ====
/-
  Finiteness of the inputs, read off the precondition.

  The precondition is the conjunction of three tests, one per argument array: every entry's absolute value is below
  `+∞`.  On the extended reals `|x| = max x (−x)`, and `max x (−x) < ⊤` excludes both infinities, so every entry of an
  array that passes its test is a real number.  Only the queries and the keys are needed below: the two arrangements
  of the normalisation agree whatever the values are.
-/
import proofs.«104723_j75393855914174_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs Cert.Pre_finite_inputs.Facts

instance : Subsingleton S_.Idx := ⟨fun a b => funext fun d => d.elim0⟩

/-- An extended real whose absolute value compares below the pattern of `+∞` is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.cmpf_def, Ideal.absf_def, htop] at h
  induction x using EReal.rec with
  | bot => exact absurd h (by simp [Ideal.cmp])
  | top => exact absurd h (by simp [Ideal.cmp])
  | coe r => exact ⟨r, rfl⟩

/-- One array's test: if the `and` over all entries of "`|A i| < +∞`" is true, every entry of `A` is a real number. -/
theorem real_of_all (A : FVec Ideal S16x4096x64 .f32)
    (h : Host.reduce IntOp.andi
        (cmpf .olt (Host.absf A) (broadcastInDim S16x4096x64 ![] bcast_S_S16x4096x64 (constant S_ .f32 0x7F800000#32)))
        (constantI S_ 1 1#1) reducesTo_S16x4096x64_S_d0_1_2 h_S_ ValueIdx.ix0 = 1#1)
    (i : S16x4096x64.Idx) : ∃ r : ℝ, A i = (r : EReal) := by
  have hi := Host.reduce_andi_all _ _ _ _ _ h i
  refine real_of_abs_lt (A i) ?_
  have hb : broadcastInDim S16x4096x64 ![] bcast_S_S16x4096x64 (constant (F := Ideal) S_ .f32 0x7F800000#32) i
      = Ideal.ofBits .f32 0x7F800000#32 :=
    broadcastInDim_apply _ bcast_S_S16x4096x64 (constant (F := Ideal) S_ .f32 0x7F800000#32) i (fun a => a.elim0) (fun a => a.elim0)
  rw [← hb]
  exact hi

/-- Under the precondition the queries and the keys are finite. -/
theorem queries_keys_real (A B C : FVec Ideal S16x4096x64 .f32) (h : fn (F := Ideal) A B C = fun _ => 1#1) :
    (∀ i, ∃ r : ℝ, A i = (r : EReal)) ∧ (∀ i, ∃ r : ℝ, B i = (r : EReal)) := by
  have h0 : fn (F := Ideal) A B C ValueIdx.ix0 = 1#1 := congrFun h ValueIdx.ix0
  dsimp only [fn] at h0
  obtain ⟨h01, -⟩ := IntOp.andi_eq_one.1 h0
  obtain ⟨hA, hB⟩ := IntOp.andi_eq_one.1 h01
  exact ⟨real_of_all A hA, real_of_all B hB⟩

end Cert.Finite

end
-- ==== Proof.Claims.lean ====
/-
  The five claims.

  Kernel side: the result array ends at `attn` of the three argument arrays — at `(b, r, d)` the weighted sum of column
  `d` of batch `b`'s values under the softmax weights of query row `(b, r)`, the weights' sum divided out LAST.
  Reference side: the same weights, each divided by their sum FIRST, then the weighted sum.  Under the precondition
  the queries and keys are finite, so each row's weights' sum is a positive real and the two arrangements agree entry
  by entry (`Cert.Attn.attnFirst_eq_attnLast`).  The three frames are the generated runs; the ideal pass rewrote
  nothing, so there is nothing to preserve.
-/
import proofs.«104723_j75393855914174_2_alg».proof.Defs
import proofs.«104723_j75393855914174_2_alg».proof.Proof.Gen.Kernel.Frame
import proofs.«104723_j75393855914174_2_alg».proof.Proof.Gen.KernelIdeal.Frame
import proofs.«104723_j75393855914174_2_alg».proof.Proof.Gen.ReferenceIdeal.Run
import proofs.«104723_j75393855914174_2_alg».proof.Proof.Gen.ReferenceIdeal.Read
import proofs.«104723_j75393855914174_2_alg».proof.Proof.KernelValue
import proofs.«104723_j75393855914174_2_alg».proof.Proof.ReferenceRow
import proofs.«104723_j75393855914174_2_alg».proof.Proof.Finite

noncomputable section

namespace Cert.Proof.Claims

open Idealize.ShloMosaic Idealize.ShloMosaic.TcCoe Idealize.SL.Sem Idealize.ShloMosaic.ValueIdx

/-- With finite queries and keys the reference's result is the kernel's function of the arguments, entry by entry:
    normalising the weights first or the weighted sum last is the same. -/
theorem bridge (A B C : (⟨3, ![16, 4096, 64]⟩ : Shape).Idx → EReal) (hA : ∀ i, ∃ r : ℝ, A i = (r : EReal))
    (hB : ∀ i, ∃ r : ℝ, B i = (r : EReal)) :
    Cert.ReferenceIdeal.Read.val_main_v18 (F := Ideal) A B C = Cert.KernelIdeal.Whole.attn A B C := by
  funext i
  obtain ⟨b, r, d, rfl⟩ : ∃ (b : Fin 16) (r : Fin 4096) (d : Fin 64), i = ix3 b r d := ⟨i 0, i 1, i 2, eq_ix3 i⟩
  rw [Cert.ReferenceIdeal.Row.result_apply]
  exact Cert.Attn.attnFirst_eq_attnLast _ (fun e => hA _) (fun k e => hB _)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `attn` of the (agreeing) arguments. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK⟩ := Cert.Finite.queries_keys_real _ _ _ (hpre c)
  rw [Cert.ReferenceIdeal.Read.val_main_v18_eq, (hagree c).1, (hagree c).2.1, (hagree c).2.2]
  exact bridge _ _ _ hQ hK

end Cert.Proof.Claims

end
-- ==== Proof.lean ====
/-
  Single-pass softmax attention with exact zeros of the scaled scores masked to `-1e30`, over 16 batches of 4096
  queries, 4096 keys and 4096 values of 64 features: a kernel that handles 1024 query rows of one batch per grid point —
  scores `(q · kᵀ) · 1/8`, mask, row maximum, exponentials, row sum, weights times values, and last one multiplication
  of each output row by the reciprocal of its weights' sum — against a reference that scales by dividing by `√64`,
  applies the same mask, normalises the exponentials by their row sum first and multiplies the normalised weights into
  the values.

  On the extended reals `√64 = 8` and dividing by `8` is multiplying by `1/8`, so both programs have the same masked
  scores, the same row maxima and the same weights `w`.  They differ in where the row sum `L` of the weights is divided
  out: `(Σ_k w_k · v_k) · (1/L)` against `Σ_k (w_k / L) · v_k`.  With finite queries and keys (the precondition) the
  scores are real numbers, the maximum of a row is one of them, every weight is a positive real and so is `L`; a
  non-negative real factor distributes over any finite sum of extended reals, which makes the two arrangements equal
  whatever the values are.

  The modules: `AttnLaw` (one row on the extended reals, the two arrangements and the law), `KernelRow` (the kernel's
  body at an entry), `KernelValue` (its 64 blocks assembled into the result array), `ReferenceRow` (the reference at an
  entry), `Finite` (finiteness from the precondition), `Claims` (the five claims).
-/
import proofs.«104723_j75393855914174_2_alg».proof.Defs
import proofs.«104723_j75393855914174_2_alg».proof.Proof.Gen.Kernel
import proofs.«104723_j75393855914174_2_alg».proof.Proof.Gen.Kernel.Skeleton
import proofs.«104723_j75393855914174_2_alg».proof.Proof.Gen.Kernel.Launch
import proofs.«104723_j75393855914174_2_alg».proof.Proof.Gen.Kernel.Points
import proofs.«104723_j75393855914174_2_alg».proof.Proof.Gen.Kernel.Frame
import proofs.«104723_j75393855914174_2_alg».proof.Proof.Gen.KernelIdeal
import proofs.«104723_j75393855914174_2_alg».proof.Proof.Gen.KernelIdeal.Skeleton
import proofs.«104723_j75393855914174_2_alg».proof.Proof.Gen.KernelIdeal.Launch
import proofs.«104723_j75393855914174_2_alg».proof.Proof.Gen.KernelIdeal.Points
import proofs.«104723_j75393855914174_2_alg».proof.Proof.Gen.KernelIdeal.Frame
import proofs.«104723_j75393855914174_2_alg».proof.Proof.Gen.KernelIdeal.Value
import proofs.«104723_j75393855914174_2_alg».proof.Proof.Gen.ReferenceIdeal
import proofs.«104723_j75393855914174_2_alg».proof.Proof.Gen.ReferenceIdeal.Run
import proofs.«104723_j75393855914174_2_alg».proof.Proof.Gen.ReferenceIdeal.Read
import proofs.«104723_j75393855914174_2_alg».proof.Proof.Gen.Pre_finite_inputs
import proofs.«104723_j75393855914174_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
